-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1 : Shape := ⟨2, ![50000, 1]⟩
abbrev S50000x2 : Shape := ⟨2, ![50000, 2]⟩
abbrev S3x128 : Shape := ⟨2, ![3, 128]⟩
abbrev S128 : Shape := ⟨1, ![128]⟩
abbrev S128x128 : Shape := ⟨2, ![128, 128]⟩
abbrev S2x1600000 : Shape := ⟨2, ![2, 1600000]⟩
abbrev S_ : Shape := ⟨0, ![]⟩

class Facts : Prop where
  bcast_S_S50000x1 : S_.BroadcastsInDim S50000x1 (![] : Fin 0 → Fin S50000x1.rank)
  reducesTo_S50000x1_S_d0_1 : S50000x1.ReducesTo [0, 1] S_
  h_S_ : 0 < S_.numel
  bcast_S_S50000x2 : S_.BroadcastsInDim S50000x2 (![] : Fin 0 → Fin S50000x2.rank)
  reducesTo_S50000x2_S_d0_1 : S50000x2.ReducesTo [0, 1] S_
  bcast_S_S3x128 : S_.BroadcastsInDim S3x128 (![] : Fin 0 → Fin S3x128.rank)
  reducesTo_S3x128_S_d0_1 : S3x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x1 .f32) (main_arg1 : FVec F S50000x2 .f32) (main_arg2 : FVec F S3x128 .f32) (main_arg3 : FVec F S128 .f32) (main_arg4 : FVec F S128x128 .f32) (main_arg5 : FVec F S128 .f32) (main_arg6 : IVec S2x1600000 32) : IVec S_ 1 :=
  let main_v0 : FVec F S50000x1 .f32 := Host.absf main_arg0
  let main_cst : FVec F S_ .f32 := constant S_ .f32 0x7F800000#32
  let main_v1 : FVec F S50000x1 .f32 := broadcastInDim S50000x1 ![] bcast_S_S50000x1 main_cst
  let main_v2 : IVec S50000x1 1 := cmpf .olt main_v0 main_v1
  let main_c : IVec S_ 1 := constantI S_ 1 1#1
  let main_v3 : IVec S_ 1 := (fun x v => Host.reduce IntOp.andi x v reducesTo_S50000x1_S_d0_1 h_S_) main_v2 main_c
  let main_v4 : FVec F S50000x2 .f32 := Host.absf main_arg1
  let main_cst_0 : FVec F S_ .f32 := constant S_ .f32 0x7F800000#32
  let main_v5 : FVec F S50000x2 .f32 := broadcastInDim S50000x2 ![] bcast_S_S50000x2 main_cst_0
  let main_v6 : IVec S50000x2 1 := cmpf .olt main_v4 main_v5
  let main_c_1 : IVec S_ 1 := constantI S_ 1 1#1
  let main_v7 : IVec S_ 1 := (fun x v => Host.reduce IntOp.andi x v reducesTo_S50000x2_S_d0_1 h_S_) main_v6 main_c_1
  let main_v8 : IVec S_ 1 := andi main_v3 main_v7
  let main_v9 : FVec F S3x128 .f32 := Host.absf main_arg2
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S50000x1 : Shape := ⟨2, ![50000, 1]⟩
abbrev S50000x2 : Shape := ⟨2, ![50000, 2]⟩
abbrev S3x128 : Shape := ⟨2, ![3, 128]⟩
abbrev S128 : Shape := ⟨1, ![128]⟩
abbrev S128x128 : Shape := ⟨2, ![128, 128]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x2 : Shape := ⟨2, ![1600000, 2]⟩
abbrev S1600000x3 : Shape := ⟨2, ![1600000, 3]⟩
abbrev S1600000x128 : Shape := ⟨2, ![1600000, 128]⟩
abbrev S8000x3 : Shape := ⟨2, ![8000, 3]⟩
abbrev S8000x128 : Shape := ⟨2, ![8000, 128]⟩
abbrev S1x128 : Shape := ⟨2, ![1, 128]⟩
abbrev S50000x128 : Shape := ⟨2, ![50000, 128]⟩

abbrev nBuf : Space → Nat
  | .hbm => 48
  | .vmem => 8
  | .smem => 0
  | _ => 0

abbrev bufTy : (tb : Table) → Fin (tcTables nBuf tb) → BufTy
  | .hbm, ⟨0, _⟩ => ⟨S50000x1, .f32⟩
  | .hbm, ⟨1, _⟩ => ⟨S50000x2, .f32⟩
  | .hbm, ⟨2, _⟩ => ⟨S3x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S2x1600000, .i32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x1, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x2, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x2, .f32⟩
  | .hbm, ⟨38, _⟩ => ⟨S1600000x2, .f32⟩
  | .hbm, ⟨39, _⟩ => ⟨S1600000x3, .f32⟩
  | .hbm, ⟨40, _⟩ => ⟨S1600000x3, .bf16⟩
  | .hbm, ⟨41, _⟩ => ⟨S3x128, .bf16⟩
  | .hbm, ⟨42, _⟩ => ⟨S128x128, .bf16⟩
  | .hbm, ⟨43, _⟩ => ⟨S1600000x128, .f32⟩
  | .hbm, ⟨44, _⟩ => ⟨S_, .f32⟩
  | .hbm, ⟨45, _⟩ => ⟨S50000x128, .f32⟩
  | .hbm, ⟨46, _⟩ => ⟨S1600000x1, .i32⟩
  | .hbm, ⟨47, _⟩ => ⟨S50000x128, .f32⟩
  | .local _ .vmem, ⟨0, _⟩ => ⟨S8000x3, .bf16⟩
  | .local _ .vmem, ⟨1, _⟩ => ⟨S8000x3, .bf16⟩
  | .local _ .vmem, ⟨2, _⟩ => ⟨S3x128, .bf16⟩
  | .local _ .vmem, ⟨3, _⟩ => ⟨S128, .f32⟩
  | .local _ .vmem, ⟨4, _⟩ => ⟨S128x128, .bf16⟩
  | .local _ .vmem, ⟨5, _⟩ => ⟨S128, .f32⟩
  | .local _ .vmem, ⟨6, _⟩ => ⟨S8000x128, .f32⟩
  | .local _ .vmem, ⟨7, _⟩ => ⟨S8000x128, .f32⟩
  | _, _ => ⟨S50000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x3 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x1_S1600000x2_S1600000x3_d1 : Shape.Concatenates [S1600000x1, S1600000x2] S1600000x3 1
  bitsLt_bf16_f32 : FTy.bits .bf16 < FTy.bits .f32
  inb_S8000x3_S8000x3_0_0 : ∀ a, (![0, 0] : Fin 2 → Nat) a + S8000x3.size a ≤ S8000x3.size a
  h_S8000x3 : 0 < S8000x3.numel
  shapeCasts_S8000x3_S8000x3 : S8000x3.ShapeCasts S8000x3
  inb_S3x128_S3x128_0_0 : ∀ a, (![0, 0] : Fin 2 → Nat) a + S3x128.size a ≤ S3x128.size a
  h_S3x128 : 0 < S3x128.numel
  shapeCasts_S3x128_S3x128 : S3x128.ShapeCasts S3x128
  inb_S128_S128_0 : ∀ a, (![0] : Fin 1 → Nat) a + S128.size a ≤ S128.size a
  h_S128 : 0 < S128.numel
  shapeCasts_S128_S1x128 : S128.ShapeCasts S1x128
  broadcasts_S1x128_S8000x128 : S1x128.Broadcasts S8000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S8000x128_S8000x128_0_0 : ∀ a, (![0, 0] : Fin 2 → Nat) a + S8000x128.size a ≤ S8000x128.size a
  h_S8000x128 : 0 < S8000x128.numel
  bcast_S_S50000x128 : S_.BroadcastsInDim S50000x128 (![] : Fin 0 → Fin S50000x128.rank)
  gather_S50000x1_S1600000x1_S1600000x1_1_0_n_n_0_1_11_wf : GatherDims.WF S50000x1 S1600000x1 S1600000x1 [1] [0] [] [0] [] 1 ![1, 1]
  gather_S50000x2_S1600000x1_S1600000x2_1_0_n_n_0_1_12_wf : GatherDims.WF S50000x2 S1600000x1 S1600000x2 [1] [0] [] [0] [] 1 ![1, 2]
  dot_S8000x3_S3x128_S8000x128_1_0_0_1_n_n_wf : DotDims.WF S8000x3 S3x128 S8000x128 [1] [0] [0] [1] [] []
  dot_S8000x128_S128x128_S8000x128_1_0_0_1_n_n_wf : DotDims.WF S8000x128 S128x128 S8000x128 [1] [0] [0] [1] [] []
  scatter_S50000x128_S1600000x1_S1600000x128_1_0_0_1_wf : ScatterDims.WF S50000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x3.size a ≤ S1600000x3.size a
  hwx0_0 : ∀ i : grid0.Coords, EltTy.bits .bf16 = 32 ∨ (Rect.block (s := S1600000x3) S8000x3.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x128.size a ≤ S3x128.size a
  hwx0_1 : ∀ i : grid0.Coords, EltTy.bits .bf16 = 32 ∨ (Rect.block (s := S3x128) S3x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8000x128.size a ≤ S1600000x128.size a
  hwx0_5 : ∀ i : grid0.Coords, EltTy.bits .f32 = 32 ∨ (Rect.block (s := S1600000x128) S8000x128.size (cc0_transform_5 i) (hinb0_5 i)).WholeWords (EltTy.packing .f32)

variable [Facts₀]

def gather_S50000x1_S1600000x1_S1600000x1_1_0_n_n_0_1_11 : GatherDims S50000x1 S1600000x1 S1600000x1 where
  offsetDims := [1]
  collapsedSliceDims := [0]
  operandBatchingDims := []
  startIndicesBatchingDims := []
  startIndexMap := [0]
  indexVectorDim := 1
  sliceSizes := ![1, 1]
  wf := gather_S50000x1_S1600000x1_S1600000x1_1_0_n_n_0_1_11_wf
def gather_S50000x2_S1600000x1_S1600000x2_1_0_n_n_0_1_12 : GatherDims S50000x2 S1600000x1 S1600000x2 where
  offsetDims := [1]
  collapsedSliceDims := [0]
  operandBatchingDims := []
  startIndicesBatchingDims := []
  startIndexMap := [0]
  indexVectorDim := 1
  sliceSizes := ![1, 2]
  wf := gather_S50000x2_S1600000x1_S1600000x2_1_0_n_n_0_1_12_wf
def dot_S8000x3_S3x128_S8000x128_1_0_0_1_n_n : DotDims S8000x3 S3x128 S8000x128 where
  lhsContracting := [1]
  rhsContracting := [0]
  lhsNonContracting := [0]
  rhsNonContracting := [1]
  lhsBatch := []
  rhsBatch := []
  wf := dot_S8000x3_S3x128_S8000x128_1_0_0_1_n_n_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf

abbrev win0_0 : Pipeline.Window sig grid0 :=
  Pipeline.Window.ofSpec (Memref.whole main_v27) S8000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S3x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S8000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x1 : Shape := ⟨2, ![50000, 1]⟩
abbrev S50000x2 : Shape := ⟨2, ![50000, 2]⟩
abbrev S3x128 : Shape := ⟨2, ![3, 128]⟩
abbrev S128 : Shape := ⟨1, ![128]⟩
abbrev S128x128 : Shape := ⟨2, ![128, 128]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x2 : Shape := ⟨2, ![1600000, 2]⟩
abbrev S1600000x3 : Shape := ⟨2, ![1600000, 3]⟩
abbrev S1600000x128 : Shape := ⟨2, ![1600000, 128]⟩
abbrev S1x128 : Shape := ⟨2, ![1, 128]⟩
abbrev S50000x128 : Shape := ⟨2, ![50000, 128]⟩

abbrev nBuf : Space → Nat
  | .hbm => 55
  | .vmem => 0
  | .smem => 0
  | _ => 0

abbrev bufTy : (tb : Table) → Fin (tcTables nBuf tb) → BufTy
  | .hbm, ⟨0, _⟩ => ⟨S50000x1, .f32⟩
  | .hbm, ⟨1, _⟩ => ⟨S50000x2, .f32⟩
  | .hbm, ⟨2, _⟩ => ⟨S3x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S2x1600000, .i32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x1, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x2, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x2, .f32⟩
  | .hbm, ⟨38, _⟩ => ⟨S1600000x2, .f32⟩
  | .hbm, ⟨39, _⟩ => ⟨S1600000x3, .f32⟩
  | .hbm, ⟨40, _⟩ => ⟨S1600000x128, .f32⟩
  | .hbm, ⟨41, _⟩ => ⟨S1x128, .f32⟩
  | .hbm, ⟨42, _⟩ => ⟨S1600000x128, .f32⟩
  | .hbm, ⟨43, _⟩ => ⟨S1600000x128, .f32⟩
  | .hbm, ⟨44, _⟩ => ⟨S_, .f32⟩
  | .hbm, ⟨45, _⟩ => ⟨S1600000x128, .f32⟩
  | .hbm, ⟨46, _⟩ => ⟨S1600000x128, .f32⟩
  | .hbm, ⟨47, _⟩ => ⟨S1600000x128, .f32⟩
  | .hbm, ⟨48, _⟩ => ⟨S1x128, .f32⟩
  | .hbm, ⟨49, _⟩ => ⟨S1600000x128, .f32⟩
  | .hbm, ⟨50, _⟩ => ⟨S1600000x128, .f32⟩
  | .hbm, ⟨51, _⟩ => ⟨S_, .f32⟩
  | .hbm, ⟨52, _⟩ => ⟨S50000x128, .f32⟩
  | .hbm, ⟨53, _⟩ => ⟨S1600000x1, .i32⟩
  | .hbm, ⟨54, _⟩ => ⟨S50000x128, .f32⟩
  | _, _ => ⟨S50000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_call0_cst : Ref sig .tc := ⟨.hbm, 44, rfl⟩
abbrev main_call0_v0 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x1_S1600000x2_S1600000x3_d1 : Shape.Concatenates [S1600000x1, S1600000x2] S1600000x3 1
  bcast_S128_S1x128_1 : S128.BroadcastsInDim S1x128 (![1] : Fin 1 → Fin S1x128.rank)
  bcast_S1x128_S1600000x128_0_1 : S1x128.BroadcastsInDim S1600000x128 (![0, 1] : Fin 2 → Fin S1600000x128.rank)
  bcast_S_S1600000x128 : S_.BroadcastsInDim S1600000x128 (![] : Fin 0 → Fin S1600000x128.rank)
  bcast_S_S50000x128 : S_.BroadcastsInDim S50000x128 (![] : Fin 0 → Fin S50000x128.rank)
  gather_S50000x1_S1600000x1_S1600000x1_1_0_n_n_0_1_11_wf : GatherDims.WF S50000x1 S1600000x1 S1600000x1 [1] [0] [] [0] [] 1 ![1, 1]
  gather_S50000x2_S1600000x1_S1600000x2_1_0_n_n_0_1_12_wf : GatherDims.WF S50000x2 S1600000x1 S1600000x2 [1] [0] [] [0] [] 1 ![1, 2]
  dot_S1600000x3_S3x128_S1600000x128_1_0_0_1_n_n_wf : DotDims.WF S1600000x3 S3x128 S1600000x128 [1] [0] [0] [1] [] []
  dot_S1600000x128_S128x128_S1600000x128_1_0_0_1_n_n_wf : DotDims.WF S1600000x128 S128x128 S1600000x128 [1] [0] [0] [1] [] []
  scatter_S50000x128_S1600000x1_S1600000x128_1_0_0_1_wf : ScatterDims.WF S50000x128 S1600000x1 S1600000x128 [1] [0] [0] 1

variable [Facts₀]

def gather_S50000x1_S1600000x1_S1600000x1_1_0_n_n_0_1_11 : GatherDims S50000x1 S1600000x1 S1600000x1 where
  offsetDims := [1]
  collapsedSliceDims := [0]
  operandBatchingDims := []
  startIndicesBatchingDims := []
  startIndexMap := [0]
  indexVectorDim := 1
  sliceSizes := ![1, 1]
  wf := gather_S50000x1_S1600000x1_S1600000x1_1_0_n_n_0_1_11_wf
def gather_S50000x2_S1600000x1_S1600000x2_1_0_n_n_0_1_12 : GatherDims S50000x2 S1600000x1 S1600000x2 where
  offsetDims := [1]
  collapsedSliceDims := [0]
  operandBatchingDims := []
  startIndicesBatchingDims := []
  startIndexMap := [0]
  indexVectorDim := 1
  sliceSizes := ![1, 2]
  wf := gather_S50000x2_S1600000x1_S1600000x2_1_0_n_n_0_1_12_wf
def dot_S1600000x3_S3x128_S1600000x128_1_0_0_1_n_n : DotDims S1600000x3 S3x128 S1600000x128 where
  lhsContracting := [1]
  rhsContracting := [0]
  lhsNonContracting := [0]
  rhsNonContracting := [1]
  lhsBatch := []
  rhsBatch := []
  wf := dot_S1600000x3_S3x128_S1600000x128_1_0_0_1_n_n_wf
def dot_S1600000x128_S128x128_S1600000x128_1_0_0_1_n_n : DotDims S1600000x128 S128x128 S1600000x128 where
  lhsContracting := [1]
  rhsContracting := [0]
  lhsNonContracting := [0]
  rhsNonContracting := [1]
  lhsBatch := []
  rhsBatch := []
  wf := dot_S1600000x128_S128x128_S1600000x128_1_0_0_1_n_n_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf

class Facts : Prop extends Facts₀ where

variable [Facts]
-- ==== Proof.LibPlainProduct.lean ====
/-
  The product of two arrays of extended reals, rows by columns, and the two operations that compute it.

  For an `M × K` array `x` and a `K × N` array `w`, `rowsByCols x w` is the `M × N` array whose entry `(r, c)` is
  the sum over `k` of `x (r, k) · w (k, c)`. On the extended reals addition is commutative and associative, so the
  sum over the finite index set is well defined whatever its order; nothing here needs the entries to be finite.

  * `matmul_zero_plain`: a matrix unit's product into the zero accumulator, with the plain dimension numbers
    (`DotDims.plain`: contract the left operand's columns with the right operand's rows), is `rowsByCols`.
  * `dotGeneral_plain`: the host's general dot product with the same dimension numbers is `rowsByCols` too.
  * `rowsByCols_rows`: the rows of a product depend on the same rows of the left operand only — if `xb` holds rows
    `e r` of `x`, then `rowsByCols xb w` holds rows `e r` of `rowsByCols x w`. This is what lets a product computed
    one block of rows at a time be read as the whole product.
-/
import Idealize.ShloMosaic.Lib.ValueIdx
import Idealize.ShloMosaic.PureOps.Ideal.Laws

noncomputable section

open scoped BigOperators

namespace Idealize.ShloMosaic.PlainProduct

open Idealize.ShloMosaic Idealize.ShloMosaic.ValueIdx

variable {φ₁ φ₂ : FTy} {M K N : Nat}

/-- Rows by columns: entry `(r, c)` is `∑ k, x (r, k) · w (k, c)`. -/
def rowsByCols (x : FVec Ideal ⟨2, ![M, K]⟩ φ₁) (w : FVec Ideal ⟨2, ![K, N]⟩ φ₂) : FVec Ideal ⟨2, ![M, N]⟩ .f32 :=
  fun i => ∑ k : Fin K, x (ix2 (n0 := M) (n1 := K) (i 0) k) * w (ix2 (n0 := K) (n1 := N) k (i 1))

theorem rowsByCols_apply (x : FVec Ideal ⟨2, ![M, K]⟩ φ₁) (w : FVec Ideal ⟨2, ![K, N]⟩ φ₂) (i : (⟨2, ![M, N]⟩ : Shape).Idx) :
    rowsByCols x w i = ∑ k : Fin K, x (ix2 (n0 := M) (n1 := K) (i 0) k) * w (ix2 (n0 := K) (n1 := N) k (i 1)) := rfl

/-- With the plain dimension numbers the left operand is read at (row of the result, contraction position). -/
theorem plain_lhsIdx (j : (⟨2, ![M, N]⟩ : Shape).Idx) (k : Fin K) :
    (DotDims.plain M K N).lhsIdx j ((contrEquiv1 (DotDims.plain M K N) K rfl rfl).symm k) = ix2 (n0 := M) (n1 := K) (j 0) k := by
  funext a; apply Fin.ext
  match a with
  | ⟨0, _⟩ => rfl
  | ⟨1, _⟩ => exact ((DotDims.plain M K N).lhsIdx_val_of_single rfl j _).trans (contrEquiv1_symm_val _ K rfl rfl k)

/-- … and the right operand at (contraction position, column of the result). -/
theorem plain_rhsIdx (j : (⟨2, ![M, N]⟩ : Shape).Idx) (k : Fin K) :
    (DotDims.plain M K N).rhsIdx j ((contrEquiv1 (DotDims.plain M K N) K rfl rfl).symm k) = ix2 (n0 := K) (n1 := N) k (j 1) := by
  funext a; apply Fin.ext
  match a with
  | ⟨0, _⟩ => exact ((DotDims.plain M K N).rhsIdx_val_of_single rfl j _).trans (contrEquiv1_symm_val _ K rfl rfl k)
  | ⟨1, _⟩ => rfl

/-- The sum over the contraction index of the operands' products, read at the operands' indices, is the sum over
    `k` of `x (r, k) · w (k, c)`. -/
theorem sum_plain (x : FVec Ideal ⟨2, ![M, K]⟩ φ₁) (w : FVec Ideal ⟨2, ![K, N]⟩ φ₂) (j : (⟨2, ![M, N]⟩ : Shape).Idx) :
    (∑ q : (DotDims.plain M K N).contr.Idx, x ((DotDims.plain M K N).lhsIdx j q) * w ((DotDims.plain M K N).rhsIdx j q))
      = rowsByCols x w j :=
  (Equiv.sum_comp (contrEquiv1 (DotDims.plain M K N) K rfl rfl).symm
      (fun q => x ((DotDims.plain M K N).lhsIdx j q) * w ((DotDims.plain M K N).rhsIdx j q))).symm.trans
    (Finset.sum_congr rfl fun k _ =>
      congrArg₂ (fun a b => x a * w b) (plain_lhsIdx j k) (plain_rhsIdx j k))

/-- A matrix unit's product into the zero accumulator is the product rows by columns. -/
theorem matmul_zero_plain (prec : Option ContractPrecision) (x : FVec Ideal ⟨2, ![M, K]⟩ φ₁) (w : FVec Ideal ⟨2, ![K, N]⟩ φ₂) :
    FloatOps.matmul (DotDims.plain M K N) prec x w (constant ⟨2, ![M, N]⟩ .f32 0x00000000#32) = rowsByCols x w :=
  funext fun j => (Ideal.matmul_constant_zero_apply (DotDims.plain M K N) prec x w j).trans (sum_plain x w j)

/-- The host's general dot product with the same dimension numbers is the same product, whatever its schedule. -/
theorem dotGeneral_plain (prec : Option ContractPrecision) (sched : HostSchedule) (x : FVec Ideal ⟨2, ![M, K]⟩ φ₁)
    (w : FVec Ideal ⟨2, ![K, N]⟩ φ₂) :
    FloatOps.dotGeneral (DotDims.plain M K N) prec sched x w = rowsByCols x w :=
  funext fun j => (Ideal.dotGeneral_apply (DotDims.plain M K N) prec sched x w j).trans (sum_plain x w j)

/-- Rows `e r` of a product are the product of rows `e r` of the left operand: if `xb (r, k) = x (e r, k)` then
    `(xb · w) (r, c) = (x · w) (e r, c)`. -/
theorem rowsByCols_rows {B : Nat} (x : FVec Ideal ⟨2, ![M, K]⟩ φ₁) (w : FVec Ideal ⟨2, ![K, N]⟩ φ₂)
    (xb : FVec Ideal ⟨2, ![B, K]⟩ φ₁) (e : Fin B → Fin M)
    (hxb : ∀ (r : Fin B) (k : Fin K), xb (ix2 (n0 := B) (n1 := K) r k) = x (ix2 (n0 := M) (n1 := K) (e r) k))
    (j : (⟨2, ![B, N]⟩ : Shape).Idx) :
    rowsByCols xb w j = rowsByCols x w (ix2 (n0 := M) (n1 := N) (e (j 0)) (j 1)) :=
  Finset.sum_congr rfl fun k _ =>
    congrArg (fun a => a * w (ix2 (n0 := K) (n1 := N) k (j 1))) (hxb (j 0) k)

end Idealize.ShloMosaic.PlainProduct

end
-- ==== Proof.LibPerceptron.lean ====
/-
  A perceptron with one hidden layer, applied to every row of an array of extended reals.

  For an `M × D` array `x`, weights `W1 : D × H` and `W2 : H × N`, and biases `b1 : H` and `b2 : N`,

    hidden x W1 b1 (r, j)        = max (∑ k, x (r, k) · W1 (k, j) + b1 j) 0
    layers x W1 b1 W2 b2 (r, c)  = ∑ j, hidden x W1 b1 (r, j) · W2 (j, c) + b2 c.

  * `layers_rows`: row `r` of the result depends on row `r` of `x` only, so the perceptron of a block of rows of `x` is
    that block of rows of the perceptron of `x`.
  * `unit_form`: the sequence of operations a matrix unit runs on a block — a product into the zero accumulator, the bias
    laid out as one row and repeated down the rows, the maximum with zero, a change of float format (the identity on
    the extended reals), a second product into zero and a second bias — is `layers`.
  * `host_form`: the same perceptron written with general dot products and biases broadcast along the rows is `layers`.

  The two forms are the same sums of the same products in the same grouping; no law of arithmetic beyond `0 + a = a` is
  used, and nothing needs the entries to be finite.
-/
import Idealize.ShloMosaic.Lib.ValueIdx
import Idealize.ShloMosaic.Lib.ValueLayout
import Idealize.ShloMosaic.Lib.Pipeline.Value
import Idealize.ShloMosaic.PureOps.Ideal.Laws
import proofs.«163032_j10943576670835_1_alg».proof.Proof.LibPlainProduct

noncomputable section

open scoped BigOperators

namespace Cert.Perceptron

open Idealize.ShloMosaic Idealize.ShloMosaic.ValueIdx Idealize.ShloMosaic.PlainProduct

variable {φx φ1 φ2 : FTy} {M D H N : Nat}

/-- The hidden layer: `max (x · W1 + b1) 0`, the bias added to every row. -/
def hidden (x : FVec Ideal ⟨2, ![M, D]⟩ φx) (W1 : FVec Ideal ⟨2, ![D, H]⟩ φ1) (b1 : FVec Ideal ⟨1, ![H]⟩ .f32) :
    FVec Ideal ⟨2, ![M, H]⟩ .f32 :=
  fun i => max (rowsByCols x W1 i + b1 (ix1 (i 1))) 0

/-- The perceptron: `hidden · W2 + b2`. -/
def layers (x : FVec Ideal ⟨2, ![M, D]⟩ φx) (W1 : FVec Ideal ⟨2, ![D, H]⟩ φ1) (b1 : FVec Ideal ⟨1, ![H]⟩ .f32)
    (W2 : FVec Ideal ⟨2, ![H, N]⟩ φ2) (b2 : FVec Ideal ⟨1, ![N]⟩ .f32) : FVec Ideal ⟨2, ![M, N]⟩ .f32 :=
  fun j => rowsByCols (hidden x W1 b1) W2 j + b2 (ix1 (j 1))

/-- Rows `e r` of the hidden layer are the hidden layer of rows `e r` of the input. -/
theorem hidden_rows {B : Nat} (x : FVec Ideal ⟨2, ![M, D]⟩ φx) (W1 : FVec Ideal ⟨2, ![D, H]⟩ φ1) (b1 : FVec Ideal ⟨1, ![H]⟩ .f32)
    (xb : FVec Ideal ⟨2, ![B, D]⟩ φx) (e : Fin B → Fin M)
    (hxb : ∀ (r : Fin B) (k : Fin D), xb (ix2 (n0 := B) (n1 := D) r k) = x (ix2 (n0 := M) (n1 := D) (e r) k))
    (r : Fin B) (j : Fin H) :
    hidden xb W1 b1 (ix2 (n0 := B) (n1 := H) r j) = hidden x W1 b1 (ix2 (n0 := M) (n1 := H) (e r) j) :=
  congrArg (fun a => max (a + b1 (ix1 j)) 0) (rowsByCols_rows x W1 xb e hxb (ix2 (n0 := B) (n1 := H) r j))

/-- Rows `e r` of the perceptron are the perceptron of rows `e r` of the input: if `xb (r, k) = x (e r, k)` then
    `layers xb … (r, c) = layers x … (e r, c)`. -/
theorem layers_rows {B : Nat} (x : FVec Ideal ⟨2, ![M, D]⟩ φx) (W1 : FVec Ideal ⟨2, ![D, H]⟩ φ1) (b1 : FVec Ideal ⟨1, ![H]⟩ .f32)
    (W2 : FVec Ideal ⟨2, ![H, N]⟩ φ2) (b2 : FVec Ideal ⟨1, ![N]⟩ .f32)
    (xb : FVec Ideal ⟨2, ![B, D]⟩ φx) (e : Fin B → Fin M)
    (hxb : ∀ (r : Fin B) (k : Fin D), xb (ix2 (n0 := B) (n1 := D) r k) = x (ix2 (n0 := M) (n1 := D) (e r) k))
    (j : (⟨2, ![B, N]⟩ : Shape).Idx) :
    layers xb W1 b1 W2 b2 j = layers x W1 b1 W2 b2 (ix2 (n0 := M) (n1 := N) (e (j 0)) (j 1)) :=
  congrArg (fun a => a + b2 (ix1 (j 1)))
    (rowsByCols_rows (hidden x W1 b1) W2 (hidden xb W1 b1) e (hidden_rows x W1 b1 xb e hxb) j)

/-- A bias laid out as one row and repeated down `M` rows reads, at `(r, c)`, the bias at `c`. -/
theorem bias_rows {K : Nat} (b : FVec Ideal ⟨1, ![K]⟩ .f32) (h1 : (⟨1, ![K]⟩ : Shape).ShapeCasts ⟨2, ![1, K]⟩)
    (h2 : (⟨2, ![1, K]⟩ : Shape).Broadcasts ⟨2, ![M, K]⟩) (i : (⟨2, ![M, K]⟩ : Shape).Idx) :
    broadcastTo ⟨2, ![M, K]⟩ (shapeCast ⟨2, ![1, K]⟩ b h1) h2 i = b (ix1 (i 1)) := by
  obtain ⟨r, c, rfl⟩ : ∃ (r : Fin M) (c : Fin K), i = ix2 r c := ⟨i 0, i 1, eq_ix2 i⟩
  exact (broadcastTo_1b_ab_apply _ h2 r c).trans (shapeCast_a_1a_apply b h1 0 c)

/-- The hidden layer as a matrix unit computes it. -/
theorem unit_hidden (x : FVec Ideal ⟨2, ![M, D]⟩ φx) (W1 : FVec Ideal ⟨2, ![D, H]⟩ φ1) (b1 : FVec Ideal ⟨1, ![H]⟩ .f32)
    (h1 : (⟨1, ![H]⟩ : Shape).ShapeCasts ⟨2, ![1, H]⟩) (h2 : (⟨2, ![1, H]⟩ : Shape).Broadcasts ⟨2, ![M, H]⟩) :
    maximumf (addf (matmul (DotDims.plain M D H) none x W1 (constant ⟨2, ![M, H]⟩ .f32 0x00000000#32))
        (broadcastTo ⟨2, ![M, H]⟩ (shapeCast ⟨2, ![1, H]⟩ b1 h1) h2))
      (broadcast ⟨2, ![M, H]⟩ (Scalar.ofBits (F := Ideal) .f32 0x00000000#32))
    = hidden x W1 b1 := by
  funext i
  show max (FloatOps.matmul (DotDims.plain M D H) none x W1 (constant ⟨2, ![M, H]⟩ .f32 0x00000000#32) i
      + broadcastTo ⟨2, ![M, H]⟩ (shapeCast ⟨2, ![1, H]⟩ b1 h1) h2 i) (Ideal.ofBits .f32 0x00000000#32) = _
  rw [matmul_zero_plain, bias_rows, Ideal.ofBits_zero_f32]
  rfl

/-- THE MATRIX UNIT'S FORM: two products into the zero accumulator, each followed by its bias laid out as one row and
    repeated down the rows, with the maximum with zero and a change of float format between them. -/
theorem unit_form {ψ : FTy} (x : FVec Ideal ⟨2, ![M, D]⟩ φx) (W1 : FVec Ideal ⟨2, ![D, H]⟩ φ1) (b1 : FVec Ideal ⟨1, ![H]⟩ .f32)
    (W2 : FVec Ideal ⟨2, ![H, N]⟩ φ2) (b2 : FVec Ideal ⟨1, ![N]⟩ .f32)
    (h1 : (⟨1, ![H]⟩ : Shape).ShapeCasts ⟨2, ![1, H]⟩) (h2 : (⟨2, ![1, H]⟩ : Shape).Broadcasts ⟨2, ![M, H]⟩)
    (h3 : (⟨1, ![N]⟩ : Shape).ShapeCasts ⟨2, ![1, N]⟩) (h4 : (⟨2, ![1, N]⟩ : Shape).Broadcasts ⟨2, ![M, N]⟩)
    (hψ : ψ.bits < FTy.f32.bits) :
    addf (matmul (DotDims.plain M H N) none
          (truncf ψ (maximumf (addf (matmul (DotDims.plain M D H) none x W1 (constant ⟨2, ![M, H]⟩ .f32 0x00000000#32))
              (broadcastTo ⟨2, ![M, H]⟩ (shapeCast ⟨2, ![1, H]⟩ b1 h1) h2))
            (broadcast ⟨2, ![M, H]⟩ (Scalar.ofBits (F := Ideal) .f32 0x00000000#32))) hψ)
          W2 (constant ⟨2, ![M, N]⟩ .f32 0x00000000#32))
      (broadcastTo ⟨2, ![M, N]⟩ (shapeCast ⟨2, ![1, N]⟩ b2 h3) h4)
    = layers x W1 b1 W2 b2 := by
  rw [unit_hidden]
  funext j
  show FloatOps.matmul (DotDims.plain M H N) none (truncf ψ (hidden x W1 b1) hψ) W2 (constant ⟨2, ![M, N]⟩ .f32 0x00000000#32) j
      + broadcastTo ⟨2, ![M, N]⟩ (shapeCast ⟨2, ![1, N]⟩ b2 h3) h4 j = _
  rw [matmul_zero_plain, bias_rows]
  rfl

/-- A bias broadcast first to one row and then along `M` rows reads, at `(r, c)`, the bias at `c`. -/
theorem bias_inDim {K : Nat} (b : FVec Ideal ⟨1, ![K]⟩ .f32)
    (h1 : (⟨1, ![K]⟩ : Shape).BroadcastsInDim ⟨2, ![1, K]⟩ (![1] : Fin 1 → Fin 2))
    (h2 : (⟨2, ![1, K]⟩ : Shape).BroadcastsInDim ⟨2, ![M, K]⟩ (![0, 1] : Fin 2 → Fin 2)) (i : (⟨2, ![M, K]⟩ : Shape).Idx) :
    broadcastInDim ⟨2, ![M, K]⟩ ![0, 1] h2 (broadcastInDim ⟨2, ![1, K]⟩ ![1] h1 b) i = b (ix1 (i 1)) := by
  refine (broadcastInDim_apply _ h2 _ i (ix2 (0 : Fin 1) (i 1)) fun a => ?_).trans
    (broadcastInDim_apply _ h1 b _ (ix1 (i 1)) fun a => ?_)
  · match a with
    | ⟨0, _⟩ => show 0 = if (1 : Nat) = 1 then 0 else (i 0).val; rw [if_pos rfl]
    | ⟨1, _⟩ =>
      show (i 1).val = if K = 1 then 0 else (i 1).val
      split
      · have := idx2_lt1 i; omega
      · rfl
  · match a with
    | ⟨0, _⟩ =>
      show (i 1).val = if K = 1 then 0 else (i 1).val
      split
      · have := idx2_lt1 i; omega
      · rfl

/-- THE HOST'S FORM: two general dot products, each followed by its bias broadcast along the rows, with the maximum with a
    zero array between them. -/
theorem host_form (x : FVec Ideal ⟨2, ![M, D]⟩ φx) (W1 : FVec Ideal ⟨2, ![D, H]⟩ φ1) (b1 : FVec Ideal ⟨1, ![H]⟩ .f32)
    (W2 : FVec Ideal ⟨2, ![H, N]⟩ φ2) (b2 : FVec Ideal ⟨1, ![N]⟩ .f32)
    (h1 : (⟨1, ![H]⟩ : Shape).BroadcastsInDim ⟨2, ![1, H]⟩ (![1] : Fin 1 → Fin 2))
    (h2 : (⟨2, ![1, H]⟩ : Shape).BroadcastsInDim ⟨2, ![M, H]⟩ (![0, 1] : Fin 2 → Fin 2))
    (h3 : (⟨1, ![N]⟩ : Shape).BroadcastsInDim ⟨2, ![1, N]⟩ (![1] : Fin 1 → Fin 2))
    (h4 : (⟨2, ![1, N]⟩ : Shape).BroadcastsInDim ⟨2, ![M, N]⟩ (![0, 1] : Fin 2 → Fin 2))
    (h0 : (⟨0, ![]⟩ : Shape).BroadcastsInDim ⟨2, ![M, H]⟩ (![] : Fin 0 → Fin 2)) :
    addf (Host.dotGeneral (DotDims.plain M H N) none
          (maximumf (addf (Host.dotGeneral (DotDims.plain M D H) none x W1)
              (broadcastInDim ⟨2, ![M, H]⟩ ![0, 1] h2 (broadcastInDim ⟨2, ![1, H]⟩ ![1] h1 b1)))
            (broadcastInDim ⟨2, ![M, H]⟩ ![] h0 (constant (F := Ideal) ⟨0, ![]⟩ .f32 0x00000000#32)))
          W2)
      (broadcastInDim ⟨2, ![M, N]⟩ ![0, 1] h4 (broadcastInDim ⟨2, ![1, N]⟩ ![1] h3 b2))
    = layers x W1 b1 W2 b2 := by
  have hh : maximumf (addf (Host.dotGeneral (DotDims.plain M D H) none x W1)
              (broadcastInDim ⟨2, ![M, H]⟩ ![0, 1] h2 (broadcastInDim ⟨2, ![1, H]⟩ ![1] h1 b1)))
            (broadcastInDim ⟨2, ![M, H]⟩ ![] h0 (constant (F := Ideal) ⟨0, ![]⟩ .f32 0x00000000#32))
          = hidden x W1 b1 := by
    funext i
    show max (FloatOps.dotGeneral (DotDims.plain M D H) none .single x W1 i
        + broadcastInDim ⟨2, ![M, H]⟩ ![0, 1] h2 (broadcastInDim ⟨2, ![1, H]⟩ ![1] h1 b1) i)
        (Ideal.ofBits .f32 0x00000000#32) = _
    rw [dotGeneral_plain, bias_inDim, Ideal.ofBits_zero_f32]
    rfl
  rw [hh]
  funext j
  show FloatOps.dotGeneral (DotDims.plain M H N) none .single (hidden x W1 b1) W2 j
      + broadcastInDim ⟨2, ![M, N]⟩ ![0, 1] h4 (broadcastInDim ⟨2, ![1, N]⟩ ![1] h3 b2) j = _
  rw [dotGeneral_plain, bias_inDim]
  rfl

end Cert.Perceptron

end
-- ==== Proof.KernelBlock.lean ====
/-
  What the kernel's body computes from the blocks it loads, at the exact values: the perceptron of the block of rows.

  The body loads a block of 8000 rows of the message array (three columns), the two weight arrays and the two biases,
  whole; multiplies the rows by the first weights into a zero accumulator, adds the first bias to every row, takes the
  maximum with zero, changes the float format (the identity on the extended reals), multiplies by the second weights
  into a zero accumulator and adds the second bias to every row. That is `Cert.Perceptron.layers` of the block.
-/
import proofs.«163032_j10943576670835_1_alg».proof.Proof.Gen.KernelIdeal.Skeleton
import proofs.«163032_j10943576670835_1_alg».proof.Proof.LibPerceptron

noncomputable section

namespace Cert.KernelIdeal.Block

open Cert.KernelIdeal Cert.KernelIdeal.Gen Idealize.ShloMosaic Cert.Perceptron

/-- The two products of the body contract the left operand's columns with the right operand's rows. -/
theorem dims_first : dot_S8000x3_S3x128_S8000x128_1_0_0_1_n_n = DotDims.plain 8000 3 128 := rfl
theorem dims_second : dot_S8000x128_S128x128_S8000x128_1_0_0_1_n_n = DotDims.plain 8000 128 128 := rfl

/-- THE BODY'S VALUE: the one value the body stores is the perceptron of the loaded block of rows. -/
theorem payload_eq (x0 : Vec Ideal S8000x3 .bf16) (x1 : Vec Ideal S3x128 .bf16) (x2 : Vec Ideal S128 .f32)
    (x3 : Vec Ideal S128x128 .bf16) (x4 : Vec Ideal S128 .f32) :
    k0_pay1 (F := Ideal) x0 x1 x2 x3 x4
      = layers (φx := .bf16) (φ1 := .bf16) (φ2 := .bf16) (M := 8000) (D := 3) (H := 128) (N := 128) x0 x1 x2 x3 x4 := by
  unfold k0_pay1
  simp only [shapeCast_self, dims_first, dims_second]
  exact unit_form (φx := .bf16) (φ1 := .bf16) (φ2 := .bf16) (M := 8000) (D := 3) (H := 128) (N := 128) x0 x1 x2 x3 x4 _ _ _ _ _

end Cert.KernelIdeal.Block

end
-- ==== Proof.KernelArray.lean ====
/-
  From blocks to the array: after the kernel's region, the array of per-edge results is the perceptron of the whole
  message array.

  The grid has 200 points. At point `t` the region reads rows `8000·t … 8000·t + 7999` of the message array (all three
  columns) and the weight and bias arrays whole, and writes rows `8000·t … 8000·t + 7999` of the result (all 128 columns).
  The body leaves the perceptron of the block it read (`Block.payload_eq`), and a row of the perceptron depends on the
  same row of its input only (`Perceptron.layers_rows`): so what point `t` writes back is its block of rows of ONE array,
  the perceptron of the whole message array (`flushed_eq`). The 200 blocks of 8000 rows cover the 1 600 000 rows — row
  `i` lies in the block of point `i / 8000` — so the array ends holding exactly that (`perEdge_final`).
-/
import proofs.«163032_j10943576670835_1_alg».proof.Proof.Gen.KernelIdeal.Frame
import proofs.«163032_j10943576670835_1_alg».proof.Proof.KernelBlock
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.Perceptron

variable (m : (ℓ : Loc nD τ sig) → Buf (Elt Ideal) ℓ) (ρ : Dev nD → PrngReg)

theorem hz : (![0, 0] : Fin 2 → Nat) = fun _ => 0 := funext fun a => by fin_cases a <;> rfl
theorem hz1 : (![0] : Fin 1 → Nat) = fun _ => 0 := funext fun a => by fin_cases a; rfl

/-- The grid has 200 points. -/
theorem point_lt (t : Fin cfg0.N) : t.val < 200 :=
  lt_of_lt_of_eq t.isLt (N_0 : cfg0.N = 200)

/-- Which block each window is on at point `t`: the message window and the result window on block row `t`, the weight
    and bias windows on their one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- Row `r` of the block of point `t` is row `8000·t + r` of the array. -/
def row (t : Fin cfg0.N) (r : Fin 8000) : Fin 1600000 :=
  ⟨8000 * t.val + r.val, by have := point_lt t; have := r.isLt; omega⟩

/-- The array of per-edge results: the perceptron of the message array as the region finds it, with the weights and
    biases as the region finds them. -/
abbrev perEdge (c : Dev nD) : S1600000x128.Idx → Elt Ideal .f32 :=
  layers (φx := .bf16) (φ1 := .bf16) (φ2 := .bf16) (M := 1600000) (D := 3) (H := 128) (N := 128)
    (V m c main_v27 : S1600000x3.Idx → Elt Ideal .bf16) (V m c main_v28 : S3x128.Idx → Elt Ideal .bf16)
    (V m c main_arg3 : S128.Idx → Elt Ideal .f32) (V m c main_v29 : S128x128.Idx → Elt Ideal .bf16)
    (V m c main_arg5 : S128.Idx → Elt Ideal .f32)

/-- The message window's block at point `t` holds rows `8000·t + r` of the message array. -/
theorem block_message (c : Dev nD) (t : Fin cfg0.N) (r : Fin 8000) (k : Fin 3) :
    (iblk m c 0 t : Vec Ideal S8000x3 .bf16) (ix2 r k)
      = (V m c main_v27 : S1600000x3.Idx → Elt Ideal .bf16) (ix2 (row t r) k) := by
  obtain ⟨e0, e1, -⟩ := idx_facts t
  unfold iblk
  rw [View.read_apply]
  show V m c main_v27 (((cfg0.win 0).blk t).view.emb (ix2 r k)) = V m c main_v27 (ix2 (row t r) k)
  refine congrArg (V m c main_v27) (funext fun a => Fin.ext ?_)
  match a with
  | ⟨0, _⟩ => show win0_0.index t (0 : Fin 2) * 8000 + 1 * r.val = 8000 * t.val + r.val; rw [e0]; omega
  | ⟨1, _⟩ => show win0_0.index t (1 : Fin 2) * 3 + 1 * k.val = k.val; rw [e1]; omega

/-- The first weights' window holds the whole array at every point. -/
theorem block_weights1 (c : Dev nD) (t : Fin cfg0.N) :
    (iblk m c 1 t : Vec Ideal S3x128 .bf16) = (V m c main_v28 : S3x128.Idx → Elt Ideal .bf16) := by
  obtain ⟨-, -, e2, e3, -⟩ := idx_facts t
  unfold iblk
  funext y
  rw [View.read_apply]
  show V m c main_v28 (((cfg0.win 1).blk t).view.emb y) = V m c main_v28 y
  refine congrArg (V m c main_v28) (funext fun a => Fin.ext ?_)
  match a with
  | ⟨0, _⟩ => show win0_1.index t (0 : Fin 2) * 3 + 1 * (y 0).val = (y 0).val; rw [e2]; omega
  | ⟨1, _⟩ => show win0_1.index t (1 : Fin 2) * 128 + 1 * (y 1).val = (y 1).val; rw [e3]; omega

/-- The first bias' window holds the whole array at every point. -/
theorem block_bias1 (c : Dev nD) (t : Fin cfg0.N) :
    (iblk m c 2 t : Vec Ideal S128 .f32) = (V m c main_arg3 : S128.Idx → Elt Ideal .f32) := by
  obtain ⟨-, -, -, -, e4, -⟩ := idx_facts t
  unfold iblk
  funext y
  rw [View.read_apply]
  show V m c main_arg3 (((cfg0.win 2).blk t).view.emb y) = V m c main_arg3 y
  refine congrArg (V m c main_arg3) (funext fun a => Fin.ext ?_)
  match a with
  | ⟨0, _⟩ => show win0_2.index t (0 : Fin 1) * 128 + 1 * (y 0).val = (y 0).val; rw [e4]; omega

/-- The second weights' window holds the whole array at every point. -/
theorem block_weights2 (c : Dev nD) (t : Fin cfg0.N) :
    (iblk m c 3 t : Vec Ideal S128x128 .bf16) = (V m c main_v29 : S128x128.Idx → Elt Ideal .bf16) := by
  obtain ⟨-, -, -, -, -, e5, e6, -⟩ := idx_facts t
  unfold iblk
  funext y
  rw [View.read_apply]
  show V m c main_v29 (((cfg0.win 3).blk t).view.emb y) = V m c main_v29 y
  refine congrArg (V m c main_v29) (funext fun a => Fin.ext ?_)
  match a with
  | ⟨0, _⟩ => show win0_3.index t (0 : Fin 2) * 128 + 1 * (y 0).val = (y 0).val; rw [e5]; omega
  | ⟨1, _⟩ => show win0_3.index t (1 : Fin 2) * 128 + 1 * (y 1).val = (y 1).val; rw [e6]; omega

/-- The second bias' window holds the whole array at every point. -/
theorem block_bias2 (c : Dev nD) (t : Fin cfg0.N) :
    (iblk m c 4 t : Vec Ideal S128 .f32) = (V m c main_arg5 : S128.Idx → Elt Ideal .f32) := by
  obtain ⟨-, -, -, -, -, -, -, e7, -⟩ := idx_facts t
  unfold iblk
  funext y
  rw [View.read_apply]
  show V m c main_arg5 (((cfg0.win 4).blk t).view.emb y) = V m c main_arg5 y
  refine congrArg (V m c main_arg5) (funext fun a => Fin.ext ?_)
  match a with
  | ⟨0, _⟩ => show win0_4.index t (0 : Fin 1) * 128 + 1 * (y 0).val = (y 0).val; rw [e7]; omega

/-- Entry `(r, c)` of the result window's block at point `t` is entry `(8000·t + r, c)` of the result array. -/
theorem block_result (t : Fin cfg0.N) (j : S8000x128.Idx) :
    ((cfg0.win 5).blk t).view.emb j = ix2 (n0 := 1600000) (n1 := 128) (row t (j 0)) (j 1) := by
  obtain ⟨-, -, -, -, -, -, -, -, e8, e9⟩ := idx_facts t
  funext a; apply Fin.ext
  match a with
  | ⟨0, _⟩ => show win0_5.index t (0 : Fin 2) * 8000 + 1 * (j 0).val = 8000 * t.val + (j 0).val; rw [e8]; omega
  | ⟨1, _⟩ => show win0_5.index t (1 : Fin 2) * 128 + 1 * (j 1).val = (j 1).val; rw [e9]; omega

/-- WHAT POINT `t` WRITES BACK is block `t` of the perceptron of the whole message array. -/
theorem flushed_eq (c : Dev nD) (t : Fin cfg0.N) :
    (dats m 0 c).flushed 5 t = ((cfg0.win 5).blk t).view.read (Elt Ideal) (perEdge m c) := by
  show (cfg0.win 5).cut (grid0.coords t) ((dats m 0 c).after 5 t) = _
  rw [after0_5]
  unfold out0_5
  rw [View.canon_unit_zero hz]
  simp only [View.ld_unit_zero (S := S8000x3) hz, View.ld_unit_zero (S := S3x128) hz, View.ld_unit_zero (S := S128) hz1,
    View.ld_unit_zero (S := S128x128) hz]
  rw [Block.payload_eq, block_weights1 m c t, block_bias1 m c t, block_weights2 m c t, block_bias2 m c t]
  funext j
  show layers (φx := .bf16) (φ1 := .bf16) (φ2 := .bf16) (M := 8000) (D := 3) (H := 128) (N := 128)
      (iblk m c 0 t) (V m c main_v28) (V m c main_arg3) (V m c main_v29) (V m c main_arg5) j
    = perEdge m c (((cfg0.win 5).blk t).view.emb j)
  rw [block_result t j]
  exact layers_rows (φx := .bf16) (φ1 := .bf16) (φ2 := .bf16) (M := 1600000) (D := 3) (H := 128) (N := 128)
    (V m c main_v27) (V m c main_v28) (V m c main_arg3) (V m c main_v29) (V m c main_arg5)
    (iblk m c 0 t) (row t) (fun r k => block_message m c t r k) j

/-- An index of the result array is in point `t`'s block iff each coordinate is in the block's range on its axis. -/
theorem mem_block (t : Fin cfg0.N) (i : S1600000x128.Idx) :
    i ∈ ((cfg0.win 5).blk t).view.set ↔ ∀ a : Fin 2, win0_5.index t a * S8000x128.size a ≤ (i a).val
      ∧ (i a).val < win0_5.index t a * S8000x128.size a + S8000x128.size a := by
  show i ∈ ((View.whole main_v30).slice (win0_5.rect t)).set ↔ _
  rw [View.set_slice_whole, Rect.mem_set_unit]
  exact Iff.rfl

/-- THE BLOCKS COVER THE ARRAY: row `i` is in the block of point `i / 8000`. -/
theorem covered (i : S1600000x128.Idx) :
    ∃ t : Fin cfg0.N, (cfg0.win 5).flush t = true ∧ i ∈ ((cfg0.win 5).blk t).view.set := by
  have hi0 : (i 0).val < 1600000 := idx2_lt0 i
  have hi1 : (i 1).val < 128 := idx2_lt1 i
  have hN : (i 0).val / 8000 < cfg0.N := by rw [show cfg0.N = 200 from N_0]; omega
  obtain ⟨-, -, -, -, -, -, -, -, e8, e9⟩ := idx_facts ⟨(i 0).val / 8000, hN⟩
  refine ⟨⟨(i 0).val / 8000, hN⟩, flush0_5 _, ?_⟩
  rw [mem_block]
  intro a
  match a with
  | ⟨0, _⟩ =>
    show win0_5.index ⟨(i 0).val / 8000, hN⟩ (0 : Fin 2) * 8000 ≤ (i 0).val
      ∧ (i 0).val < win0_5.index ⟨(i 0).val / 8000, hN⟩ (0 : Fin 2) * 8000 + 8000
    rw [e8]
    show (i 0).val / 8000 * 8000 ≤ (i 0).val ∧ (i 0).val < (i 0).val / 8000 * 8000 + 8000
    omega
  | ⟨1, _⟩ =>
    show win0_5.index ⟨(i 0).val / 8000, hN⟩ (1 : Fin 2) * 128 ≤ (i 1).val
      ∧ (i 1).val < win0_5.index ⟨(i 0).val / 8000, hN⟩ (1 : Fin 2) * 128 + 128
    rw [e9]
    omega

/-- THE ARRAY OF PER-EDGE RESULTS after the region: the perceptron of the whole message array. -/
theorem perEdge_final (c : Dev nD) : (dats m 0 c).arrAt 5 cfg0.N = perEdge m c :=
  (dats m 0 c).arrAt_eq_of_cover 5 (perEdge m c) (fun t _ => flushed_eq m c t) covered

end Cert.KernelIdeal.Whole

end
-- ==== Proof.KernelRun.lean ====
/-
  The kernel's run, read: its result is the scatter-add of the perceptron of the message array.

  After the region the program has three more lines: a zero array with one row per node, the destination node of every
  edge laid out as a column, and the scatter-add of the per-edge results into the zero array at those destinations. The
  region leaves the per-edge results at the perceptron of the whole message array (`Whole.perEdge_final`) and touches no
  other array the later lines read, so the program's result is the scatter-add of that perceptron (`result`), and its
  argument arrays end as they were launched.
-/
import proofs.«163032_j10943576670835_1_alg».proof.Proof.Gen.KernelIdeal.Frame
import proofs.«163032_j10943576670835_1_alg».proof.Proof.KernelArray
import Idealize.ShloMosaic.Lib.Pipeline.Value
import Idealize.ShloMosaic.Lib.StableHlo.Run
import Idealize.ShloMosaic.PureOps.Ideal

noncomputable section

open Idealize.ShloMosaic Idealize.ShloMosaic.TcCoe Idealize.SL.Sem
open Idealize.ShloMosaic.Pipeline (Dat)

namespace Cert.KernelIdeal.Whole

open Cert.KernelIdeal Cert.KernelIdeal.Gen

variable (m : (ℓ : Loc nD τ sig) → Buf (Elt Ideal) ℓ) (ρ : Dev nD → PrngReg)

/-- The program's result: the per-edge results added, edge by edge, into a zero array at the row of the edge's
    destination node. -/
abbrev result (c : Dev nD) : S50000x128.Idx → Elt Ideal .f32 :=
  Host.scatterAdd scatter_S50000x128_S1600000x1_S1600000x128_1_0_0_1
    (broadcastInDim S50000x128 ![] bcast_S_S50000x128 (constant (F := Ideal) S_ .f32 0x00000000#32))
    (broadcastInDim S1600000x1 ![0] bcast_S1600000_S1600000x1_0 (V m c main_v3 : S1600000.Idx → BitVec 32))
    (perEdge m c)

/-- The lines after the region compute `result`: the destinations are an array the region does not touch, the per-edge
    results the array it wrote. -/
theorem tail_eq (c : Dev nD) :
    Pipeline.afterTail₀ cfgs (dats m) 0 (V0 m) [hostOps1] c main_v33 = result m c := by
  unfold Pipeline.afterTail₀
  show StableHlo.after hostOps1 _ (Proc.devRef .tc main_v33) = _
  after_results
  have hdst : Pipeline.withArrays (cfgs 0).spec c (V0 m c) (fun w => (dats m 0 c).arrAt w (cfgs 0).N)
      (Proc.devRef .tc main_v3) = V m c main_v3 :=
    Pipeline.withArrays_of_ne _ c (V0 m c) _ main_v3 (by exact (by decide : ∀ w, Pipeline.arrRef spec0 w ≠ main_v3))
  have hupd : Pipeline.withArrays (cfgs 0).spec c (V0 m c) (fun w => (dats m 0 c).arrAt w (cfgs 0).N)
      (Proc.devRef .tc main_v30) = perEdge m c :=
    (Pipeline.withArrays_arr spec0 winFacts0.arr_inj c _ _ 5).trans (perEdge_final m c)
  rw [hdst, hupd]

/-- THE KERNEL'S RUN: every weakly fair execution terminates with the result array at `result` and the argument arrays
    as launched. -/
theorem run : θ_run defs (onTc (τ := τ) (main (F := Ideal))) ⟨m, fun _ => 0, ρ⟩ fun r => ∀ c : Dev nD,
      r.2.mem ((c.tc : Thread nD τ).loc main_v33) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v33 (Pipeline.mem_restRefs_of main_v33 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c))),
      ((h c).2 main_arg4 (Pipeline.mem_restRefs_of main_arg4 (by decide) (by decide))).trans (W_main_arg4 m (dats m) c),
      ((h c).1 4).trans (((dats m 0 c).arrAt_in 4 rfl _).trans ((A_eq m c 4).trans (V_main_arg5 m c))),
      ((h c).2 main_arg6 (Pipeline.mem_restRefs_of main_arg6 (by decide) (by decide))).trans (W_main_arg6 m (dats m) c)⟩)
    (run_main m ρ)

end Cert.KernelIdeal.Whole

end
-- ==== Proof.ReferenceStage.lean ====
/-
  What the reference computes before its scatter, at the exact values: the perceptron of the message array.

  The reference multiplies the whole message array (one row per edge, three columns) by the first weights with a general
  dot product, adds the first bias broadcast along the rows, takes the maximum with a zero array, multiplies by the second
  weights and adds the second bias broadcast along the rows. That is `Cert.Perceptron.layers` of the message array.
-/
import proofs.«163032_j10943576670835_1_alg».proof.Proof.Gen.ReferenceIdeal.Read
import proofs.«163032_j10943576670835_1_alg».proof.Proof.LibPerceptron

noncomputable section

namespace Cert.ReferenceIdeal.Stage

open Cert.ReferenceIdeal Cert.ReferenceIdeal.Gen Cert.ReferenceIdeal.Read Idealize.ShloMosaic Cert.Perceptron

/-- The two products of the reference contract the left operand's columns with the right operand's rows. -/
theorem dims_first : dot_S1600000x3_S3x128_S1600000x128_1_0_0_1_n_n = DotDims.plain 1600000 3 128 := rfl
theorem dims_second : dot_S1600000x128_S128x128_S1600000x128_1_0_0_1_n_n = DotDims.plain 1600000 128 128 := rfl

/-- THE REFERENCE'S VALUE BEFORE THE SCATTER: the array of per-edge results is the perceptron of the message array. -/
theorem updates_eq (x0 : (⟨S50000x1, .f32⟩ : BufTy).Contents (Elt Ideal)) (x1 : (⟨S50000x2, .f32⟩ : BufTy).Contents (Elt Ideal))
    (x2 : (⟨S3x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S2x1600000, .i32⟩ : BufTy).Contents (Elt Ideal)) :
    val_main_v35 (F := Ideal) x0 x1 x2 x3 x4 x5 x6
      = layers (φx := .f32) (φ1 := .f32) (φ2 := .f32) (M := 1600000) (D := 3) (H := 128) (N := 128)
          (val_main_v26 (F := Ideal) x0 x1 x6) x2 x3 x4 x5 := by
  unfold val_main_v35 val_main_v34 val_main_v33 val_main_v32 val_main_v31 val_main_call0_v0 val_main_call0_cst
    val_main_v30 val_main_v29 val_main_v28 val_main_v27
  simp only [dims_first, dims_second]
  exact host_form (φx := .f32) (φ1 := .f32) (φ2 := .f32) (M := 1600000) (D := 3) (H := 128) (N := 128)
    (val_main_v26 (F := Ideal) x0 x1 x6) x2 x3 x4 x5 _ _ _ _ _

end Cert.ReferenceIdeal.Stage

end
-- ==== Proof.Bridge.lean ====
/-
  The two programs' results are one function of the arguments.

  Both programs prepare the same arrays before they apply the perceptron: the message array (for every edge, the source
  node's feature beside the difference of the source's and the destination's positions) and the column of destination
  nodes. The kernel's program changes the float format of the message array and of the two weight arrays before its
  region; on the extended reals a change of format is the identity, so the region finds the reference's message array
  (`message_eq`) and the weights as launched (`weights1_eq`, `weights2_eq`). The biases reach the region untouched, and the
  destinations are read after it from an array it does not write (`dst_eq`).

  The kernel's result is the scatter-add of the perceptron of that message array (`Whole.result`), the reference's the
  scatter-add of its own per-edge array, which is the same perceptron (`Stage.updates_eq`): the scatter-add itself — the
  same zero array, the same destinations, the same updates — is never opened (`result_eq`).
-/
import proofs.«163032_j10943576670835_1_alg».proof.Proof.Gen.KernelIdeal.Frame
import proofs.«163032_j10943576670835_1_alg».proof.Proof.Gen.ReferenceIdeal.Read
import proofs.«163032_j10943576670835_1_alg».proof.Proof.KernelRun
import proofs.«163032_j10943576670835_1_alg».proof.Proof.ReferenceStage
import Idealize.ShloMosaic.Lib.StableHlo.Run
import Idealize.ShloMosaic.PureOps.Ideal

noncomputable section

open Idealize.ShloMosaic Idealize.ShloMosaic.TcCoe Idealize.SL.Sem

namespace Cert.Bridge

open Cert.KernelIdeal Cert.KernelIdeal.Gen

variable (m : (ℓ : Loc nD τ sig) → Buf (Elt Ideal) ℓ)

set_option maxRecDepth 8192 in
set_option maxHeartbeats 2000000 in
/-- The message array the region finds is the reference's message array of the launched arguments. -/
theorem message_eq (c : Dev nD) :
    (V m c main_v27 : S1600000x3.Idx → Elt Ideal .bf16)
      = Cert.ReferenceIdeal.Read.val_main_v26 (F := Ideal) (m ((c.tc : Thread nD τ).loc main_arg0))
          (m ((c.tc : Thread nD τ).loc main_arg1)) (m ((c.tc : Thread nD τ).loc main_arg6)) := by
  show StableHlo.after hostOps0 (fun b => m (c, b)) (Proc.devRef .tc main_v27) = _
  after_results_simp
  rfl

set_option maxRecDepth 8192 in
set_option maxHeartbeats 2000000 in
/-- The destination nodes the later lines read are the reference's: row 1 of the edge array. -/
theorem dst_eq (c : Dev nD) :
    (V m c main_v3 : S1600000.Idx → BitVec 32)
      = Cert.ReferenceIdeal.Read.val_main_v3 (F := Ideal) (m ((c.tc : Thread nD τ).loc main_arg6)) := by
  show StableHlo.after hostOps0 (fun b => m (c, b)) (Proc.devRef .tc main_v3) = _
  after_results_simp
  rfl

set_option maxRecDepth 8192 in
set_option maxHeartbeats 2000000 in
/-- The first weights the region finds are the launched ones. -/
theorem weights1_eq (c : Dev nD) :
    (V m c main_v28 : S3x128.Idx → Elt Ideal .bf16) = m ((c.tc : Thread nD τ).loc main_arg2) := by
  show StableHlo.after hostOps0 (fun b => m (c, b)) (Proc.devRef .tc main_v28) = _
  after_results_simp
  rfl

set_option maxRecDepth 8192 in
set_option maxHeartbeats 2000000 in
/-- The second weights the region finds are the launched ones. -/
theorem weights2_eq (c : Dev nD) :
    (V m c main_v29 : S128x128.Idx → Elt Ideal .bf16) = m ((c.tc : Thread nD τ).loc main_arg4) := by
  show StableHlo.after hostOps0 (fun b => m (c, b)) (Proc.devRef .tc main_v29) = _
  after_results_simp
  rfl

/-- THE TWO RESULTS ARE ONE: the kernel's result is the reference's result of the same arguments. -/
theorem result_eq (c : Dev nD) :
    Whole.result m c
      = Cert.ReferenceIdeal.Read.val_main_v38 (F := Ideal) (m ((c.tc : Thread nD τ).loc main_arg0))
          (m ((c.tc : Thread nD τ).loc main_arg1)) (m ((c.tc : Thread nD τ).loc main_arg2))
          (m ((c.tc : Thread nD τ).loc main_arg3)) (m ((c.tc : Thread nD τ).loc main_arg4))
          (m ((c.tc : Thread nD τ).loc main_arg5)) (m ((c.tc : Thread nD τ).loc main_arg6)) := by
  unfold Whole.result Whole.perEdge
  rw [message_eq m c, weights1_eq m c, V_main_arg3 m c, weights2_eq m c, V_main_arg5 m c, dst_eq m c]
  unfold Cert.ReferenceIdeal.Read.val_main_v38
  rw [Cert.ReferenceIdeal.Stage.updates_eq]
  rfl

end Cert.Bridge

end
-- ==== Proof.lean ====
/-
  The proof of `Cert.Claim`: an edge-wise perceptron followed by a sum over each node's incoming edges, computed block by
  block on the matrix unit, against the same computation written with whole-array dot products.

  Both programs form, for every edge, a message of three numbers (the source node's feature and the difference of the
  source's and the destination's positions), apply to it a perceptron with one hidden layer of 128 units and the maximum
  with zero between the layers, and add the 128 results into the row of the edge's destination node. The kernel's program
  applies the perceptron 8000 edges at a time, in a lower float format on the way into each product; the reference applies
  it to all 1 600 000 edges at once.

  On the extended reals the change of format is the identity and a product into a zero accumulator is the plain sum of
  products, so a block's result is the perceptron of the block (`Block.payload_eq`); a row of the perceptron depends on the
  same row of its input only, so the 200 blocks are the perceptron of the whole message array (`Whole.perEdge_final`); the
  reference's per-edge array is that perceptron too (`Stage.updates_eq`); and the messages, the destinations and the
  final sum over edges are the same operations of the same arguments in both programs (`Bridge.result_eq`). No law of
  arithmetic beyond `0 + a = a` is used, so nothing is asked of the inputs: the precondition is never opened.

  The three frames: the two kernel programs' are the generated ones; the reference's is its generated run with the result
  dropped. The idealized kernel is the kernel's own text read on the extended reals, so there is nothing to preserve.
-/
import proofs.«163032_j10943576670835_1_alg».proof.Defs
import proofs.«163032_j10943576670835_1_alg».proof.Proof.Gen.Kernel
import proofs.«163032_j10943576670835_1_alg».proof.Proof.Gen.Kernel.Skeleton
import proofs.«163032_j10943576670835_1_alg».proof.Proof.Gen.Kernel.Launch
import proofs.«163032_j10943576670835_1_alg».proof.Proof.Gen.Kernel.Points
import proofs.«163032_j10943576670835_1_alg».proof.Proof.Gen.Kernel.Frame
import proofs.«163032_j10943576670835_1_alg».proof.Proof.Gen.KernelIdeal
import proofs.«163032_j10943576670835_1_alg».proof.Proof.Gen.KernelIdeal.Skeleton
import proofs.«163032_j10943576670835_1_alg».proof.Proof.Gen.KernelIdeal.Launch
import proofs.«163032_j10943576670835_1_alg».proof.Proof.Gen.KernelIdeal.Points
import proofs.«163032_j10943576670835_1_alg».proof.Proof.Gen.KernelIdeal.Frame
import proofs.«163032_j10943576670835_1_alg».proof.Proof.Gen.ReferenceIdeal
import proofs.«163032_j10943576670835_1_alg».proof.Proof.Gen.Pre_finite_inputs
import proofs.«163032_j10943576670835_1_alg».proof.Proof.Gen.ReferenceIdeal.Run
import proofs.«163032_j10943576670835_1_alg».proof.Proof.Gen.ReferenceIdeal.Read
import proofs.«163032_j10943576670835_1_alg».proof.Proof.KernelRun
import proofs.«163032_j10943576670835_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- On the extended reals, from memories that agree on the arguments, the kernel's program ends with its result at the
    scatter-add of the perceptron of the message array, and the reference ends at the same function of the same
    arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6⟩ := hagree c
  rw [Cert.ReferenceIdeal.Read.val_main_v38_eq, e0, e1, e2, e3, e4, e5, e6]
  exact (Cert.Bridge.result_eq m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
